-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S100000x16 : Shape := ⟨2, ![100000, 16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S100000x16 : S_.BroadcastsInDim S100000x16 (![] : Fin 0 → Fin S100000x16.rank)
  reducesTo_S100000x16_S_d0_1 : S100000x16.ReducesTo [0, 1] S_

variable [Facts]

def fn_part1 {F : FTy → Type} [FloatOps F] (main_arg5 : FVec F S16 .f32) (main_arg6 : FVec F S100000x16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S100000x16 .f32 := Host.absf main_arg6
  let main_cst_8 : FVec F S_ .f32 := constant S_ .f32 0x7F800000#32
  let main_v25 : FVec F S100000x16 .f32 := broadcastInDim S100000x16 ![] bcast_S_S100000x16 main_cst_8
  let main_v26 : IVec S100000x16 1 := cmpf .olt main_v24 main_v25
  let main_c_9 : IVec S_ 1 := constantI S_ 1 1#1
  let main_v27 : IVec S_ 1 := (fun x v => Host.reduce IntOp.andi x v reducesTo_S100000x16_S_d0_1 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S512x16 .f32) (main_arg3 : FVec F S16 .f32) (main_arg4 : FVec F S16x16 .f32) (main_arg5 : FVec F S16 .f32) (main_arg6 : FVec F S100000x16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S100000x16 : Shape := ⟨2, ![100000, 16]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S2000x512 : Shape := ⟨2, ![2000, 512]⟩
abbrev S2000x16 : Shape := ⟨2, ![2000, 16]⟩
abbrev S3200000x16 : Shape := ⟨2, ![3200000, 16]⟩
abbrev S100000x1 : Shape := ⟨2, ![100000, 1]⟩
abbrev S1x16 : Shape := ⟨2, ![1, 16]⟩
abbrev S2000 : Shape := ⟨1, ![2000]⟩
abbrev S2000x1 : Shape := ⟨2, ![2000, 1]⟩

abbrev nBuf : Space → Nat
  | .hbm => 89
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S100000x16, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .f32⟩
  | .hbm, ⟨12, _⟩ => ⟨S3200000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000, .f32⟩
  | .hbm, ⟨39, _⟩ => ⟨S3200000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x16, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x16, .f32⟩
  | .hbm, ⟨53, _⟩ => ⟨S3200000x1, .f32⟩
  | .hbm, ⟨54, _⟩ => ⟨S3200000x16, .f32⟩
  | .hbm, ⟨55, _⟩ => ⟨S3200000x16, .f32⟩
  | .hbm, ⟨56, _⟩ => ⟨S_, .f32⟩
  | .hbm, ⟨57, _⟩ => ⟨S100000x16, .f32⟩
  | .hbm, ⟨58, _⟩ => ⟨S3200000x1, .i32⟩
  | .hbm, ⟨59, _⟩ => ⟨S100000x16, .f32⟩
  | .hbm, ⟨60, _⟩ => ⟨S100000x1, .f32⟩
  | .hbm, ⟨61, _⟩ => ⟨S100000x16, .f32⟩
  | .hbm, ⟨62, _⟩ => ⟨S100000x16, .f32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S100000x16, .f32⟩
  | .hbm, ⟨67, _⟩ => ⟨S_, .i32⟩
  | .hbm, ⟨68, _⟩ => ⟨S3200000, .i32⟩
  | .hbm, ⟨69, _⟩ => ⟨S3200000, .i1⟩
  | .hbm, ⟨70, _⟩ => ⟨S_, .i32⟩
  | .hbm, ⟨71, _⟩ => ⟨S3200000, .i32⟩
  | .hbm, ⟨72, _⟩ => ⟨S3200000, .i32⟩
  | .hbm, ⟨73, _⟩ => ⟨S3200000, .i32⟩
  | .hbm, ⟨74, _⟩ => ⟨S3200000x1, .i32⟩
  | .hbm, ⟨75, _⟩ => ⟨S3200000x16, .f32⟩
  | .hbm, ⟨76, _⟩ => ⟨S3200000x1, .f32⟩
  | .hbm, ⟨77, _⟩ => ⟨S3200000x16, .f32⟩
  | .hbm, ⟨78, _⟩ => ⟨S3200000x16, .f32⟩
  | .hbm, ⟨79, _⟩ => ⟨S_, .f32⟩
  | .hbm, ⟨80, _⟩ => ⟨S100000x16, .f32⟩
  | .hbm, ⟨81, _⟩ => ⟨S3200000x1, .i32⟩
  | .hbm, ⟨82, _⟩ => ⟨S100000x16, .f32⟩
  | .hbm, ⟨83, _⟩ => ⟨S100000x1, .f32⟩
  | .hbm, ⟨84, _⟩ => ⟨S100000x16, .f32⟩
  | .hbm, ⟨85, _⟩ => ⟨S100000x16, .f32⟩
  | .hbm, ⟨86, _⟩ => ⟨S100000x16, .f32⟩
  | .hbm, ⟨87, _⟩ => ⟨S1x16, .f32⟩
  | .hbm, ⟨88, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | .local _ .vmem, ⟨14, _⟩ => ⟨S16x16, .f32⟩
  | .local _ .vmem, ⟨15, _⟩ => ⟨S2000x16, .f32⟩
  | .local _ .vmem, ⟨16, _⟩ => ⟨S2000x16, .f32⟩
  | .local _ .vmem, ⟨17, _⟩ => ⟨S2000x16, .f32⟩
  | .local _ .vmem, ⟨18, _⟩ => ⟨S2000x16, .f32⟩
  | .local _ .vmem, ⟨19, _⟩ => ⟨S1x16, .f32⟩
  | .local _ .vmem, ⟨20, _⟩ => ⟨S2000x16, .f32⟩
  | .local _ .vmem, ⟨21, _⟩ => ⟨S2000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_c_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x16_S16x16_0_0 : ∀ a, (![0, 0] : Fin 2 → Nat) a + S16x16.size a ≤ S16x16.size a
  h_S16x16 : 0 < S16x16.numel
  reduces_S2000x16_S2000 : S2000x16.Reduces [1] S2000
  shapeCasts_S2000_S2000x1 : S2000.ShapeCasts S2000x1
  broadcasts_S2000x1_S2000x16 : S2000x1.Broadcasts S2000x16
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S2000x512_S512x16_S2000x16_1_0_0_1_n_n_wf : DotDims.WF S2000x512 S512x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x16_S2000x16_1_0_0_1_n_n_wf : DotDims.WF S2000x16 S16x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S100000x16.size a
  hwx1_3 : ∀ i : grid1.Coords, EltTy.bits .f32 = 32 ∨ (Rect.block (s := S100000x16) S2000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S100000x16.size a
  hwx3_2 : ∀ i : grid3.Coords, EltTy.bits .f32 = 32 ∨ (Rect.block (s := S100000x16) S2000x16.size (cc3_transform_2 i) (hinb3_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S100000x16 : Shape := ⟨2, ![100000, 16]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S100000x1 : Shape := ⟨2, ![100000, 1]⟩
abbrev S1x16 : Shape := ⟨2, ![1, 16]⟩

abbrev nBuf : Space → Nat
  | .hbm => 146
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x16, .f32⟩
  | 5 => ⟨S16, .f32⟩
  | 6 => ⟨S100000x16, .f32⟩
  | 7 => ⟨S1x3200000, .i32⟩
  | 8 => ⟨S3200000, .i32⟩
  | 9 => ⟨S1x3200000, .i32⟩
  | 10 => ⟨S3200000, .i32⟩
  | 11 => ⟨S100000x16, .f32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S3200000, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000x16, .f32⟩
  | 50 => ⟨S3200000x1, .f32⟩
  | 51 => ⟨S3200000x16, .f32⟩
  | 52 => ⟨S3200000x16, .f32⟩
  | 53 => ⟨S_, .f32⟩
  | 54 => ⟨S100000x16, .f32⟩
  | 55 => ⟨S3200000x1, .i32⟩
  | 56 => ⟨S100000x16, .f32⟩
  | 57 => ⟨S_, .f32⟩
  | 58 => ⟨S100000, .f32⟩
  | 59 => ⟨S100000, .f32⟩
  | 60 => ⟨S100000x1, .f32⟩
  | 61 => ⟨S100000x16, .f32⟩
  | 62 => ⟨S100000x16, .f32⟩
  | 63 => ⟨S100000x16, .f32⟩
  | 64 => ⟨S1x16, .f32⟩
  | 65 => ⟨S100000x16, .f32⟩
  | 66 => ⟨S100000x16, .f32⟩
  | 67 => ⟨S_, .f32⟩
  | 68 => ⟨S100000x16, .f32⟩
  | 69 => ⟨S100000x16, .f32⟩
  | 70 => ⟨S100000x16, .f32⟩
  | 71 => ⟨S1x3200000, .i32⟩
  | 72 => ⟨S3200000, .i32⟩
  | 73 => ⟨S1x3200000, .i32⟩
  | 74 => ⟨S3200000, .i32⟩
  | 75 => ⟨S100000x16, .f32⟩
  | 76 => ⟨S_, .f32⟩
  | 77 => ⟨S3200000, .f32⟩
  | 78 => ⟨S_, .f32⟩
  | 79 => ⟨S100000, .f32⟩
  | 80 => ⟨S3200000x1, .i32⟩
  | 81 => ⟨S100000, .f32⟩
  | 82 => ⟨S_, .f32⟩
  | 83 => ⟨S100000, .f32⟩
  | 84 => ⟨S100000, .f32⟩
  | 85 => ⟨S100000, .f32⟩
  | 86 => ⟨S_, .i32⟩
  | 87 => ⟨S3200000, .i32⟩
  | 88 => ⟨S3200000, .i1⟩
  | 89 => ⟨S_, .i32⟩
  | 90 => ⟨S3200000, .i32⟩
  | 91 => ⟨S3200000, .i32⟩
  | 92 => ⟨S3200000, .i32⟩
  | 93 => ⟨S3200000x1, .i32⟩
  | 94 => ⟨S3200000, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000, .f32⟩
  | 104 => ⟨S3200000, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000x16, .f32⟩
  | 114 => ⟨S3200000x1, .f32⟩
  | 115 => ⟨S3200000x16, .f32⟩
  | 116 => ⟨S3200000x16, .f32⟩
  | 117 => ⟨S_, .f32⟩
  | 118 => ⟨S100000x16, .f32⟩
  | 119 => ⟨S3200000x1, .i32⟩
  | 120 => ⟨S100000x16, .f32⟩
  | 121 => ⟨S_, .f32⟩
  | 122 => ⟨S100000, .f32⟩
  | 123 => ⟨S100000, .f32⟩
  | 124 => ⟨S100000x1, .f32⟩
  | 125 => ⟨S100000x16, .f32⟩
  | 126 => ⟨S100000x16, .f32⟩
  | 127 => ⟨S100000x16, .f32⟩
  | _ => ⟨S100000x512, .f32⟩

abbrev hbmTy0_1 (i : Nat) : BufTy := match i % 128 with
  | 0 => ⟨S1x16, .f32⟩
  | 1 => ⟨S100000x16, .f32⟩
  | 2 => ⟨S100000x16, .f32⟩
  | 3 => ⟨S_, .f32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x16, .f32⟩
  | 10 => ⟨S100000x16, .f32⟩
  | 11 => ⟨S100000x16, .f32⟩
  | 12 => ⟨S_, .f32⟩
  | 13 => ⟨S100000, .f32⟩
  | 14 => ⟨S100000x1, .f32⟩
  | 15 => ⟨S100000x1, .f32⟩
  | 16 => ⟨S100000x16, .f32⟩
  | 17 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_cst : Ref sig .tc := ⟨.hbm, 67, rfl⟩
abbrev main_call0_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_16 : Ref sig .tc := ⟨.hbm, 105, rfl⟩
abbrev main_v78 : Ref sig .tc := ⟨.hbm, 106, rfl⟩
abbrev main_v79 : Ref sig .tc := ⟨.hbm, 107, rfl⟩
abbrev main_c_17 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_19 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_call1_cst : Ref sig .tc := ⟨.hbm, 131, rfl⟩
abbrev main_call1_v0 : Ref sig .tc := ⟨.hbm, 132, rfl⟩
abbrev main_call1_cst_0 : Ref sig .tc := ⟨.hbm, 133, rfl⟩
abbrev main_call1_v1 : Ref sig .tc := ⟨.hbm, 134, rfl⟩
abbrev main_call1_v2 : Ref sig .tc := ⟨.hbm, 135, rfl⟩
abbrev main_call1_v3 : Ref sig .tc := ⟨.hbm, 136, rfl⟩
abbrev main_call1_v4 : Ref sig .tc := ⟨.hbm, 137, rfl⟩
abbrev main_call1_v5 : Ref sig .tc := ⟨.hbm, 138, rfl⟩
abbrev main_call1_v6 : Ref sig .tc := ⟨.hbm, 139, rfl⟩
abbrev main_call1_cst_1 : Ref sig .tc := ⟨.hbm, 140, rfl⟩
abbrev main_call1_v7 : Ref sig .tc := ⟨.hbm, 141, rfl⟩
abbrev main_call1_v8 : Ref sig .tc := ⟨.hbm, 142, rfl⟩
abbrev main_call1_v9 : Ref sig .tc := ⟨.hbm, 143, rfl⟩
abbrev main_call1_v10 : Ref sig .tc := ⟨.hbm, 144, rfl⟩
abbrev main_v100 : Ref sig .tc := ⟨.hbm, 145, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  dot_S100000x512_S512x16_S100000x16_1_0_0_1_n_n_wf : DotDims.WF S100000x512 S512x16 S100000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.RunValue.lean ====
/-
  The idealized kernel's whole run, with its result named. The program is four pipelined regions among three
  stretches of host operations; the buffer contents at each boundary are a fold from the launch memory, and after
  the last region every unscoped buffer holds the fold's last value. Read at the result buffer this is the array
  the last region's write-backs leave; read at an argument it is the launch contents.
-/
import proofs.«144356_j29618094473880_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at that buffer, and the argument arrays are as launched. -/
theorem run_value : θ_run defs (onTc (τ := τ) (main (F := F))) ⟨m, fun _ => 0, ρ⟩ (fun r => ∀ c : Dev nD,
      r.2.mem ((c.tc : Thread nD τ).loc main_v67) = W7 m ρ c (Proc.devRef .tc main_v67)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v67 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibPoint.lean ====
/-
  One entry of a row block of a matrix product. If a block holds rows of a tall matrix A (its row p is row a of A)
  and the whole right factor B, then entry (p, q) of the matrix unit's product of the block with B, started from a
  zero accumulator, is entry (a, q) of the host's product A·B: both are the sum over c of A (a, c) * B (c, q).
  At the ideal values a change of float format is the identity, so the operands' element formats are free.
-/
import proofs.«144356_j29618094473880_1_alg».proof.Proof.LibDot

noncomputable section

namespace Cert.LibPoint

open Idealize.ShloMosaic Idealize.ShloMosaic.ValueIdx
open scoped BigOperators

variable {M m k n : Nat} {φ₁ φ₂ ψ₁ ψ₂ : FTy}

/-- Entry (p, q) of the block product is entry (a, q) of the whole product, when row p of the block is row a of A
    and the right factor is read whole. -/
theorem block_product_entry
    (wA : DotDims.WF ⟨2, ![M, k]⟩ ⟨2, ![k, n]⟩ ⟨2, ![M, n]⟩ [1] [0] [0] [1] [] [])
    (wb : DotDims.WF ⟨2, ![m, k]⟩ ⟨2, ![k, n]⟩ ⟨2, ![m, n]⟩ [1] [0] [0] [1] [] [])
    (precA precb : Option ContractPrecision)
    (A : FVec Ideal ⟨2, ![M, k]⟩ φ₁) (B : FVec Ideal ⟨2, ![k, n]⟩ φ₂)
    (x : FVec Ideal ⟨2, ![m, k]⟩ ψ₁) (y : FVec Ideal ⟨2, ![k, n]⟩ ψ₂)
    (p : Fin m) (q : Fin n) (a : Fin M)
    (hx : ∀ c : Fin k, x (ix2 p c) = A (ix2 a c)) (hy : ∀ c : Fin k, y (ix2 c q) = B (ix2 c q)) :
    matmul (LibDot.dims wb) precb x y (constant ⟨2, ![m, n]⟩ .f32 0x00000000#32) (ix2 p q)
      = Host.dotGeneral (LibDot.dims wA) precA A B (ix2 a q) := by
  rw [LibDot.matmul_zero_apply, LibDot.dotGeneral_apply]
  exact Finset.sum_congr rfl fun c _ => by rw [hx c, hy c]

end Cert.LibPoint
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.LibLogSoftmaxRow.lean ====
/-
  A log-softmax along the rows of a matrix as a kernel computes it, read at one entry, at the ideal values.
  From an a × b array v the kernel takes each row's maximum from negative infinity, keeps it as a column, spreads it
  over the b columns, subtracts, exponentiates, sums each row from zero, keeps the sums as a column, takes the
  logarithm, spreads it and subtracts again. Entry (p, q) of the result is
    (v (p, q) - M) - log (sum over r of exp (v (p, r) - M)),   M the supremum of row p.
  For any extents.
-/
import proofs.«144356_j29618094473880_1_alg».proof.Proof.LibRowReduce
import proofs.«144356_j29618094473880_1_alg».proof.Proof.LibKeepdims

noncomputable section

namespace Cert.LibLogSoftmaxRow

open Idealize.ShloMosaic Idealize.ShloMosaic.ValueIdx
open scoped BigOperators

variable {a b : Nat}

/-- The row maximum kept as a column and spread over the columns reads, anywhere in row p, the row's supremum. -/
theorem spreadMax_apply (v : FVec Ideal ⟨2, ![a, b]⟩ .f32)
    (hr : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩
        (multiReduction (F := Ideal) .maximumf [1] ⟨1, ![a]⟩ v 0xFF800000#32 hr hφ hacc) hc) hb (ix2 p c)
      = (Finset.univ : Finset (Fin b)).sup fun r => v (ix2 p r) :=
  (broadcastTo_shapeCast_column_apply _ hc hb p c).trans (LibRowReduce.rowMax_apply v hr hφ hacc p)

/-- Entry (p, q) of the kernel's row-wise log-softmax. -/
theorem logSoftmax_apply (v : FVec Ideal ⟨2, ![a, b]⟩ .f32)
    (hr : (⟨2, ![a, b]⟩ : Shape).Reduces [1] ⟨1, ![a]⟩) (hφ : FKind.Formats .f32)
    (hacc : (0xFF800000#32 : BitVec 32) = FKind.maximumf.neutral .f32 hφ)
    (hφ' : FKind.Formats .f32) (hacc' : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    subf (subf v (broadcastTo ⟨2, ![a, b]⟩ (shapeCast ⟨2, ![a, 1]⟩
          (multiReduction (F := Ideal) .maximumf [1] ⟨1, ![a]⟩ v 0xFF800000#32 hr hφ hacc) hc) hb))
      (broadcastTo ⟨2, ![a, b]⟩ (Idealize.ShloMosaic.log (shapeCast ⟨2, ![a, 1]⟩
          (multiReduction (F := Ideal) .add [1] ⟨1, ![a]⟩
            (Idealize.ShloMosaic.exp (subf v (broadcastTo ⟨2, ![a, b]⟩ (shapeCast ⟨2, ![a, 1]⟩
              (multiReduction (F := Ideal) .maximumf [1] ⟨1, ![a]⟩ v 0xFF800000#32 hr hφ hacc) hc) hb)))
            0x00000000#32 hr hφ' hacc') hc)) hb) (ix2 p q)
      = (v (ix2 p q) - (Finset.univ : Finset (Fin b)).sup fun r => v (ix2 p r))
        - Ideal.log (∑ r : Fin b, Ideal.exp (v (ix2 p r) - (Finset.univ : Finset (Fin b)).sup fun r' => v (ix2 p r'))) := by
  have hm := spreadMax_apply v hr hφ hacc hc hb p
  rw [subf_apply, subf_apply, hm q]
  congr 1
  rw [broadcastTo_a1_ab_apply]
  show Ideal.log (shapeCast ⟨2, ![a, 1]⟩ _ hc (ix2 p (0 : Fin 1))) = _
  rw [shapeCast_a_a1_apply, LibRowReduce.rowSum_apply]
  congr 1
  refine Finset.sum_congr rfl fun r _ => ?_
  show Ideal.exp (subf v _ (ix2 p r)) = _
  rw [subf_apply, hm r]

end Cert.LibLogSoftmaxRow

end
-- ==== Proof.Payloads.lean ====
/-
  What each of the four kernel bodies stores, read at one entry of its block, at the ideal values. A change of
  float format is the identity there, so the two matrix-unit products are plain sums of products of the loaded
  blocks; the clamp stage is max (x + bias row, 0) * mask entry by entry; the last stage is a row-wise
  log-softmax of the biased block.
-/
import proofs.«144356_j29618094473880_1_alg».proof.Proof.Gen.KernelIdeal.Skeleton
import proofs.«144356_j29618094473880_1_alg».proof.Proof.LibPoint
import proofs.«144356_j29618094473880_1_alg».proof.Proof.LibLogSoftmaxRow
import Idealize.ShloMosaic.Lib.ValueLayout
import Idealize.ShloMosaic.Lib.Pipeline.Value

noncomputable section

namespace Cert.KernelIdeal.Payloads

open Cert.KernelIdeal Cert.KernelIdeal.Gen
open Idealize.ShloMosaic Idealize.ShloMosaic.ValueIdx
open scoped BigOperators

/-- The whole first product: the feature matrix times the first weight matrix. -/
def product1 (A : FVec Ideal S100000x512 .f32) (B : FVec Ideal S512x16 .f32) : FVec Ideal S100000x16 .f32 :=
  Host.dotGeneral (F := Ideal) (LibDot.dims (m := 100000) (k := 512) (n := 16) (by decide)) none A B

/-- The whole second product: the hidden activations times the second weight matrix. -/
def product2 (A : FVec Ideal S100000x16 .f32) (B : FVec Ideal S16x16 .f32) : FVec Ideal S100000x16 .f32 :=
  Host.dotGeneral (F := Ideal) (LibDot.dims (m := 100000) (k := 16) (n := 16) (by decide)) none A B

/-- Entry (p, q) of the first body's block product is entry (a, q) of the whole product when block row p is
    array row a and the second operand is loaded whole. -/
theorem product1_entry (A : FVec Ideal S100000x512 .f32) (B : FVec Ideal S512x16 .f32)
    (x0 : FVec Ideal S2000x512 .f32) (x1 : FVec Ideal S512x16 .f32) (p : Fin 2000) (q : Fin 16) (a : Fin 100000)
    (hx : ∀ c : Fin 512, x0 (ix2 p c) = A (ix2 a c)) (hy : ∀ c : Fin 512, x1 (ix2 c q) = B (ix2 c q)) :
    k0_pay1 x0 x1 (ix2 p q) = product1 A B (ix2 a q) := by
  unfold k0_pay1 product1
  exact LibPoint.block_product_entry (M := 100000) (m := 2000) (k := 512) (n := 16) _ _ none none A B _ _ p q a hx hy

/-- The same for the second body, whose left operand is a 2000 × 16 block. -/
theorem product2_entry (A : FVec Ideal S100000x16 .f32) (B : FVec Ideal S16x16 .f32)
    (x0 : FVec Ideal S2000x16 .f32) (x1 : FVec Ideal S16x16 .f32) (p : Fin 2000) (q : Fin 16) (a : Fin 100000)
    (hx : ∀ c : Fin 16, x0 (ix2 p c) = A (ix2 a c)) (hy : ∀ c : Fin 16, x1 (ix2 c q) = B (ix2 c q)) :
    k2_pay1 x0 x1 (ix2 p q) = product2 A B (ix2 a q) := by
  unfold k2_pay1 product2
  refine LibPoint.block_product_entry (M := 100000) (m := 2000) (k := 16) (n := 16) _ _ none none A B _ _ p q a (fun c => ?_) hy
  rw [truncf_apply, shapeCast_self]
  exact hx c

/-- The biased block of the clamp stage and of the last stage: entry (p, r) is x (p, r) + row (0, r). -/
theorem biased_apply (x0 : FVec Ideal S2000x16 .f32) (x1 : FVec Ideal S1x16 .f32) (p : Fin 2000) (r : Fin 16) :
    addf (F := Ideal) (φ := .f32) (shapeCast S2000x16 x0 shapeCasts_S2000x16_S2000x16)
      (broadcastTo S2000x16 (shapeCast S1x16 x1 shapeCasts_S1x16_S1x16) broadcasts_S1x16_S2000x16) (ix2 p r)
      = x0 (ix2 p r) + x1 (ix2 (0 : Fin 1) r) := by
  rw [addf_apply, shapeCast_self, shapeCast_self]
  exact congrArg _ (broadcastTo_1b_ab_apply (a := 2000) (b := 16) x1 broadcasts_S1x16_S2000x16 p r)

/-- Entry (p, q) of the clamp stage's store: max (x + bias row, 0) times the mask. -/
theorem clamp_entry (x0 : FVec Ideal S2000x16 .f32) (x1 : FVec Ideal S1x16 .f32) (x2 : FVec Ideal S2000x16 .f32)
    (p : Fin 2000) (q : Fin 16) :
    k1_pay1 x0 x1 x2 (ix2 p q)
      = max (x0 (ix2 p q) + x1 (ix2 (0 : Fin 1) q)) (Ideal.ofBits .f32 0x00000000#32) * x2 (ix2 p q) := by
  unfold k1_pay1
  rw [mulf_apply, maximumf_apply, biased_apply]
  rfl

/-- Entry (p, q) of the last stage's store: the row-wise log-softmax of the biased block. -/
theorem logSoftmax_entry (x0 : FVec Ideal S2000x16 .f32) (x1 : FVec Ideal S1x16 .f32) (p : Fin 2000) (q : Fin 16) :
    k3_pay1 x0 x1 (ix2 p q)
      = ((x0 (ix2 p q) + x1 (ix2 (0 : Fin 1) q))
          - (Finset.univ : Finset (Fin 16)).sup fun r => x0 (ix2 p r) + x1 (ix2 (0 : Fin 1) r))
        - Ideal.log (∑ r : Fin 16, Ideal.exp ((x0 (ix2 p r) + x1 (ix2 (0 : Fin 1) r))
            - (Finset.univ : Finset (Fin 16)).sup fun r' => x0 (ix2 p r') + x1 (ix2 (0 : Fin 1) r'))) := by
  unfold k3_pay1
  refine (LibLogSoftmaxRow.logSoftmax_apply (a := 2000) (b := 16) _ reduces_S2000x16_S2000 (.inl rfl) rfl (.inl rfl) rfl
    shapeCasts_S2000_S2000x1 broadcasts_S2000x1_S2000x16 p q).trans ?_
  simp only [biased_apply]

/-! ## The same entries at a general index of the block -/

/-- The one row of a 1 × 16 array under column (j 1) of a two-axis index. -/
def rowUnder {n : Nat} (j : (⟨2, ![n, 16]⟩ : Shape).Idx) : S1x16.Idx := ix2 (0 : Fin 1) (j 1)

theorem product1_at (A : FVec Ideal S100000x512 .f32) (B : FVec Ideal S512x16 .f32)
    (x0 : FVec Ideal S2000x512 .f32) (x1 : FVec Ideal S512x16 .f32) (j : S2000x16.Idx) (i : S100000x16.Idx)
    (hcol : (i 1).val = (j 1).val)
    (hx : ∀ c : Fin 512, x0 (ix2 (j 0) c) = A (ix2 (i 0) c))
    (hy : ∀ (c : Fin 512) (q : Fin 16), x1 (ix2 c q) = B (ix2 c q)) :
    k0_pay1 x0 x1 j = product1 A B i := by
  obtain ⟨p, q, rfl⟩ : ∃ (p : Fin 2000) (q : Fin 16), j = ix2 p q := ⟨j 0, j 1, eq_ix2 j⟩
  obtain ⟨a, q', rfl⟩ : ∃ (a : Fin 100000) (q' : Fin 16), i = ix2 a q' := ⟨i 0, i 1, eq_ix2 i⟩
  obtain rfl : q' = q := Fin.ext hcol
  exact product1_entry A B x0 x1 p q' a hx (fun c => hy c q')

theorem product2_at (A : FVec Ideal S100000x16 .f32) (B : FVec Ideal S16x16 .f32)
    (x0 : FVec Ideal S2000x16 .f32) (x1 : FVec Ideal S16x16 .f32) (j : S2000x16.Idx) (i : S100000x16.Idx)
    (hcol : (i 1).val = (j 1).val)
    (hx : ∀ c : Fin 16, x0 (ix2 (j 0) c) = A (ix2 (i 0) c))
    (hy : ∀ (c : Fin 16) (q : Fin 16), x1 (ix2 c q) = B (ix2 c q)) :
    k2_pay1 x0 x1 j = product2 A B i := by
  obtain ⟨p, q, rfl⟩ : ∃ (p : Fin 2000) (q : Fin 16), j = ix2 p q := ⟨j 0, j 1, eq_ix2 j⟩
  obtain ⟨a, q', rfl⟩ : ∃ (a : Fin 100000) (q' : Fin 16), i = ix2 a q' := ⟨i 0, i 1, eq_ix2 i⟩
  obtain rfl : q' = q := Fin.ext hcol
  exact product2_entry A B x0 x1 p q' a hx (fun c => hy c q')

theorem clamp_at (x0 : FVec Ideal S2000x16 .f32) (x1 : FVec Ideal S1x16 .f32) (x2 : FVec Ideal S2000x16 .f32) (j : S2000x16.Idx) :
    k1_pay1 x0 x1 x2 j = max (x0 j + x1 (rowUnder j)) (Ideal.ofBits .f32 0x00000000#32) * x2 j := by
  obtain ⟨p, q, rfl⟩ : ∃ (p : Fin 2000) (q : Fin 16), j = ix2 p q := ⟨j 0, j 1, eq_ix2 j⟩
  exact clamp_entry x0 x1 x2 p q

theorem logSoftmax_at (x0 : FVec Ideal S2000x16 .f32) (x1 : FVec Ideal S1x16 .f32) (j : S2000x16.Idx) :
    k3_pay1 x0 x1 j
      = ((x0 j + x1 (rowUnder j))
          - (Finset.univ : Finset (Fin 16)).sup fun r => x0 (ix2 (j 0) r) + x1 (ix2 (0 : Fin 1) r))
        - Ideal.log (∑ r : Fin 16, Ideal.exp ((x0 (ix2 (j 0) r) + x1 (ix2 (0 : Fin 1) r))
            - (Finset.univ : Finset (Fin 16)).sup fun r' => x0 (ix2 (j 0) r') + x1 (ix2 (0 : Fin 1) r'))) := by
  obtain ⟨p, q, rfl⟩ : ∃ (p : Fin 2000) (q : Fin 16), j = ix2 p q := ⟨j 0, j 1, eq_ix2 j⟩
  exact logSoftmax_entry x0 x1 p q

/-! ## The two row-wise stages as functions of whole arrays, and a block entry as an array entry -/

/-- The array the clamp stage computes from the aggregated features A, the bias row R and the mask K. -/
def clampRows (A : FVec Ideal S100000x16 .f32) (R : FVec Ideal S1x16 .f32) (K : FVec Ideal S100000x16 .f32) :
    FVec Ideal S100000x16 .f32 :=
  fun i => max (A i + R (rowUnder i)) (Ideal.ofBits .f32 0x00000000#32) * K i

/-- The array the last stage computes from the aggregated features A and the bias row R: the row-wise log-softmax
    of the biased array. -/
def logSoftmaxRows (A : FVec Ideal S100000x16 .f32) (R : FVec Ideal S1x16 .f32) : FVec Ideal S100000x16 .f32 :=
  fun i => ((A i + R (rowUnder i))
      - (Finset.univ : Finset (Fin 16)).sup fun r => A (ix2 (i 0) r) + R (ix2 (0 : Fin 1) r))
    - Ideal.log (∑ r : Fin 16, Ideal.exp ((A (ix2 (i 0) r) + R (ix2 (0 : Fin 1) r))
        - (Finset.univ : Finset (Fin 16)).sup fun r' => A (ix2 (i 0) r') + R (ix2 (0 : Fin 1) r')))

/-- A block entry of the clamp stage is the array's entry at the index the block entry sits at. -/
theorem clamp_block (A : FVec Ideal S100000x16 .f32) (R : FVec Ideal S1x16 .f32) (K : FVec Ideal S100000x16 .f32)
    (x0 : FVec Ideal S2000x16 .f32) (x1 : FVec Ideal S1x16 .f32) (x2 : FVec Ideal S2000x16 .f32)
    (j : S2000x16.Idx) (i : S100000x16.Idx)
    (h0 : x0 j = A i) (h1 : x1 (rowUnder j) = R (rowUnder i)) (h2 : x2 j = K i) :
    k1_pay1 x0 x1 x2 j = clampRows A R K i := by
  rw [clamp_at, h0, h1, h2]; rfl

/-- A block entry of the last stage is the array's entry at the index the block entry sits at, when the block's
    row is the array's row and the bias row is read whole. -/
theorem logSoftmax_block (A : FVec Ideal S100000x16 .f32) (R : FVec Ideal S1x16 .f32)
    (x0 : FVec Ideal S2000x16 .f32) (x1 : FVec Ideal S1x16 .f32) (j : S2000x16.Idx) (i : S100000x16.Idx)
    (hcol : (i 1).val = (j 1).val)
    (hx : ∀ r : Fin 16, x0 (ix2 (j 0) r) = A (ix2 (i 0) r))
    (hr : ∀ r : Fin 16, x1 (ix2 (0 : Fin 1) r) = R (ix2 (0 : Fin 1) r)) :
    k3_pay1 x0 x1 j = logSoftmaxRows A R i := by
  obtain ⟨p, q, rfl⟩ : ∃ (p : Fin 2000) (q : Fin 16), j = ix2 p q := ⟨j 0, j 1, eq_ix2 j⟩
  obtain ⟨a, q', rfl⟩ : ∃ (a : Fin 100000) (q' : Fin 16), i = ix2 a q' := ⟨i 0, i 1, eq_ix2 i⟩
  obtain rfl : q' = q := Fin.ext hcol
  rw [logSoftmax_entry]
  have hx' : ∀ r : Fin 16, x0 (ix2 p r) = A (ix2 a r) := hx
  unfold logSoftmaxRows
  simp only [hx', hr]
  rfl

end Cert.KernelIdeal.Payloads

end
-- ==== Proof.Region0.lean ====
/-
  The first product as one function of whole arrays. The stage runs over fifty blocks of 2000 rows of the feature
  matrix; at each it multiplies the block by the whole weight matrix on the matrix unit, from a zero accumulator.
  Entry (p, q) of block t's product is the sum over c of A (2000 t + p, c) * B (c, q), which is entry
  (2000 t + p, q) of the whole product A·B; the fifty blocks tile the 100000 rows.
-/
import proofs.«144356_j29618094473880_1_alg».proof.Proof.Gen.KernelIdeal.Frame
import proofs.«144356_j29618094473880_1_alg».proof.Proof.Payloads

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where the windows' blocks sit: the left operand's and the result's blocks move together down the rows, the
    right operand is read whole at every point. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 49
    ∧ win0_2.index t (1 : Fin 2) = 0 :=
  (by decide +kernel : ∀ t : Fin grid0.N, _)

/-- Every block of rows is some point's. -/
theorem idx_onto : ∀ q0 : Fin 50, ∃ t : Fin cfg0.N, win0_2.index t = ![q0.val, 0] :=
  (by decide +kernel : ∀ q0 : Fin 50, ∃ t : Fin grid0.N, win0_2.index t = ![q0.val, 0])

/-- What point t writes back is block t of the whole product. -/
theorem flushed_eq (c : Dev nD) (t : Fin cfg0.N) :
    (dat0 V c).flushed 2 t
      = ((cfg0.win 2).blk t).view.read (Elt Ideal) (Payloads.product1 (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x16) hz]
  obtain ⟨e0, e1, e2, e3, e4, e5⟩ := idx_facts t
  funext j
  refine Payloads.product1_at (V c main_arg0) (V c main_arg2) (iblk0 V c 0 t) (iblk0 V c 1 t) j (((cfg0.win 2).blk t).view.emb j) ?_ (fun x => ?_) (fun x q => ?_)
  · show win0_2.index t (1 : Fin 2) * 16 + 1 * (j 1).val = (j 1).val; omega
  · show V c main_arg0 (((cfg0.win 0).blk t).view.emb (ix2 (j 0) x)) = V c main_arg0 (ix2 ((((cfg0.win 2).blk t).view.emb j) 0) x)
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * x.val = x.val; omega
  · show V c main_arg2 (((cfg0.win 1).blk t).view.emb (ix2 x q)) = V c main_arg2 (ix2 x q)
    refine congrArg (V c main_arg2) ?_
    funext a; apply Fin.ext
    match a with
    | ⟨0, _⟩ => show win0_1.index t (0 : Fin 2) * 512 + 1 * x.val = x.val; omega
    | ⟨1, _⟩ => show win0_1.index t (1 : Fin 2) * 16 + 1 * q.val = q.val; omega

/-- An index of the array is in point t's block iff each coordinate is in the block's range on its axis. -/
theorem mem_blk (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v28).slice (win0_2.rect t)).set ↔ _
  rw [View.set_slice_whole, Rect.mem_set_unit]
  exact Iff.rfl

/-- The blocks tile the array: row r is in the block of point r / 2000. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- The array the stage leaves: the whole product. -/
theorem array_eq (c : Dev nD) :
    (dat0 V c).arrAt 2 cfg0.N = Payloads.product1 (V c main_arg0) (V c main_arg2) :=
  (dat0 V c).arrAt_eq_of_cover 2 _ (fun t _ => flushed_eq V c t) cover

end Cert.KernelIdeal.Region0

end
-- ==== Proof.Region1.lean ====
/-
  The clamp stage as one function of whole arrays. The stage runs over fifty blocks of 2000 rows; at each it loads
  the block of the aggregated features, the one bias row and the block of the mask, and writes back
  max (x + bias, 0) * mask. Block t of the result is therefore block t of the array whose entry (r, q) is
  max (A (r, q) + R (0, q), 0) * K (r, q), and since the fifty blocks tile the 100000 rows the written array is
  that array.
-/
import proofs.«144356_j29618094473880_1_alg».proof.Proof.Gen.KernelIdeal.Frame
import proofs.«144356_j29618094473880_1_alg».proof.Proof.Payloads

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where the windows' blocks sit: the three row-blocked windows move together down the rows, the bias row stays. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = win1_3.index t (0 : Fin 2)
    ∧ win1_2.index t (1 : Fin 2) = 0
    ∧ win1_3.index t (0 : Fin 2) ≤ 49
    ∧ win1_3.index t (1 : Fin 2) = 0 :=
  (by decide +kernel : ∀ t : Fin grid1.N, _)

/-- Every block of rows is some point's. -/
theorem idx_onto : ∀ q0 : Fin 50, ∃ t : Fin cfg1.N, win1_3.index t = ![q0.val, 0] :=
  (by decide +kernel : ∀ q0 : Fin 50, ∃ t : Fin grid1.N, win1_3.index t = ![q0.val, 0])

/-- What point t writes back is block t of the clamp stage's array. -/
theorem flushed_eq (c : Dev nD) (t : Fin cfg1.N) :
    (dat1 V c).flushed 3 t
      = ((cfg1.win 3).blk t).view.read (Elt Ideal) (Payloads.clampRows (V c main_v45) (V c main_v46) (V c main_arg6)) := by
  show (cfg1.win 3).cut (grid1.coords t) ((dat1 V c).after 3 t) = _
  rw [after1_3]
  unfold out1_3
  rw [View.canon_unit_zero hz]
  simp only [View.ld_unit_zero (S := S2000x16) hz, View.ld_unit_zero (S := S1x16) hz]
  obtain ⟨e0, e1, e2, e3, e4, e5, e6, e7⟩ := idx_facts t
  funext j
  refine Payloads.clamp_block (V c main_v45) (V c main_v46) (V c main_arg6) (iblk1 V c 0 t) (iblk1 V c 1 t) (iblk1 V c 2 t) j
    (((cfg1.win 3).blk t).view.emb j) ?_ ?_ ?_
  · show V c main_v45 (((cfg1.win 0).blk t).view.emb j) = V c main_v45 (((cfg1.win 3).blk t).view.emb j)
    refine congrArg (V c main_v45) ?_
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 16 + 1 * (j 1).val = win1_3.index t (1 : Fin 2) * 16 + 1 * (j 1).val; omega
  · show V c main_v46 (((cfg1.win 1).blk t).view.emb (Payloads.rowUnder j)) = V c main_v46 (Payloads.rowUnder (((cfg1.win 3).blk t).view.emb j))
    refine congrArg (V c main_v46) ?_
    funext a; apply Fin.ext
    match a with
    | ⟨0, _⟩ => show win1_1.index t (0 : Fin 2) * 1 + 1 * 0 = 0; omega
    | ⟨1, _⟩ => show win1_1.index t (1 : Fin 2) * 16 + 1 * (j 1).val = win1_3.index t (1 : Fin 2) * 16 + 1 * (j 1).val; omega
  · show V c main_arg6 (((cfg1.win 2).blk t).view.emb j) = V c main_arg6 (((cfg1.win 3).blk t).view.emb j)
    refine congrArg (V c main_arg6) ?_
    funext a; apply Fin.ext
    match a with
    | ⟨0, _⟩ => show win1_2.index t (0 : Fin 2) * 2000 + 1 * (j 0).val = win1_3.index t (0 : Fin 2) * 2000 + 1 * (j 0).val; omega
    | ⟨1, _⟩ => show win1_2.index t (1 : Fin 2) * 16 + 1 * (j 1).val = win1_3.index t (1 : Fin 2) * 16 + 1 * (j 1).val; omega

/-- An index of the array is in point t's block iff each coordinate is in the block's range on its axis. -/
theorem mem_blk (t : Fin cfg1.N) (i : S100000x16.Idx) :
    i ∈ ((cfg1.win 3).blk t).view.set ↔ ∀ a : Fin 2, win1_3.index t a * S2000x16.size a ≤ (i a).val ∧ (i a).val < win1_3.index t a * S2000x16.size a + S2000x16.size a := by
  show i ∈ ((View.whole main_v47).slice (win1_3.rect t)).set ↔ _
  rw [View.set_slice_whole, Rect.mem_set_unit]
  exact Iff.rfl

/-- The blocks tile the array: row r is in the block of point r / 2000. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 16 ≤ (i 1).val ∧ (i 1).val < win1_3.index t (1 : Fin 2) * 16 + 16; omega

/-- The array the clamp stage leaves. -/
theorem array_eq (c : Dev nD) :
    (dat1 V c).arrAt 3 cfg1.N = Payloads.clampRows (V c main_v45) (V c main_v46) (V c main_arg6) :=
  (dat1 V c).arrAt_eq_of_cover 3 _ (fun t _ => flushed_eq V c t) cover

end Cert.KernelIdeal.Region1

end
-- ==== Proof.Region2.lean ====
/-
  The second product as one function of whole arrays. The stage runs over fifty blocks of 2000 rows of the hidden
  activations; at each it multiplies the block by the whole 16 × 16 weight matrix on the matrix unit, from a zero
  accumulator. Entry (p, q) of block t's product is entry (2000 t + p, q) of the whole product, and the fifty
  blocks tile the 100000 rows.
-/
import proofs.«144356_j29618094473880_1_alg».proof.Proof.Gen.KernelIdeal.Frame
import proofs.«144356_j29618094473880_1_alg».proof.Proof.Payloads

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where the windows' blocks sit: the left operand's and the result's blocks move together down the rows, the
    right operand is read whole at every point. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 49
    ∧ win2_2.index t (1 : Fin 2) = 0 :=
  (by decide +kernel : ∀ t : Fin grid2.N, _)

/-- Every block of rows is some point's. -/
theorem idx_onto : ∀ q0 : Fin 50, ∃ t : Fin cfg2.N, win2_2.index t = ![q0.val, 0] :=
  (by decide +kernel : ∀ q0 : Fin 50, ∃ t : Fin grid2.N, win2_2.index t = ![q0.val, 0])

/-- What point t writes back is block t of the whole product. -/
theorem flushed_eq (c : Dev nD) (t : Fin cfg2.N) :
    (dat2 V c).flushed 2 t
      = ((cfg2.win 2).blk t).view.read (Elt Ideal) (Payloads.product2 (V c main_v47) (V c main_arg4)) := by
  show (cfg2.win 2).cut (grid2.coords t) ((dat2 V c).after 2 t) = _
  rw [after2_2]
  unfold out2_2
  rw [View.canon_unit_zero hz]
  simp only [View.ld_unit_zero (S := S2000x16) hz, View.ld_unit_zero (S := S16x16) hz]
  obtain ⟨e0, e1, e2, e3, e4, e5⟩ := idx_facts t
  funext j
  refine Payloads.product2_at (V c main_v47) (V c main_arg4) (iblk2 V c 0 t) (iblk2 V c 1 t) j (((cfg2.win 2).blk t).view.emb j) ?_ (fun x => ?_) (fun x q => ?_)
  · show win2_2.index t (1 : Fin 2) * 16 + 1 * (j 1).val = (j 1).val; omega
  · show V c main_v47 (((cfg2.win 0).blk t).view.emb (ix2 (j 0) x)) = V c main_v47 (ix2 ((((cfg2.win 2).blk t).view.emb j) 0) x)
    refine congrArg (V c main_v47) ?_
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 16 + 1 * x.val = x.val; omega
  · show V c main_arg4 (((cfg2.win 1).blk t).view.emb (ix2 x q)) = V c main_arg4 (ix2 x q)
    refine congrArg (V c main_arg4) ?_
    funext a; apply Fin.ext
    match a with
    | ⟨0, _⟩ => show win2_1.index t (0 : Fin 2) * 16 + 1 * x.val = x.val; omega
    | ⟨1, _⟩ => show win2_1.index t (1 : Fin 2) * 16 + 1 * q.val = q.val; omega

/-- An index of the array is in point t's block iff each coordinate is in the block's range on its axis. -/
theorem mem_blk (t : Fin cfg2.N) (i : S100000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v48).slice (win2_2.rect t)).set ↔ _
  rw [View.set_slice_whole, Rect.mem_set_unit]
  exact Iff.rfl

/-- The blocks tile the array: row r is in the block of point r / 2000. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 16 ≤ (i 1).val ∧ (i 1).val < win2_2.index t (1 : Fin 2) * 16 + 16; omega

/-- The array the stage leaves: the whole product. -/
theorem array_eq (c : Dev nD) :
    (dat2 V c).arrAt 2 cfg2.N = Payloads.product2 (V c main_v47) (V c main_arg4) :=
  (dat2 V c).arrAt_eq_of_cover 2 _ (fun t _ => flushed_eq V c t) cover

end Cert.KernelIdeal.Region2

end
-- ==== Proof.Region3.lean ====
/-
  The last stage as one function of whole arrays. The stage runs over fifty blocks of 2000 rows; at each it loads
  the block of the aggregated features and the one bias row, and writes back the row-wise log-softmax of the
  biased block. A row of a block is a whole row of the array (the blocks keep all sixteen columns), so block t of
  the result is block t of the row-wise log-softmax of the biased array, and the fifty blocks tile the 100000 rows.
-/
import proofs.«144356_j29618094473880_1_alg».proof.Proof.Gen.KernelIdeal.Frame
import proofs.«144356_j29618094473880_1_alg».proof.Proof.Payloads

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where the windows' blocks sit: the features' and the result's blocks move together down the rows, the bias
    row stays. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 49
    ∧ win3_2.index t (1 : Fin 2) = 0 :=
  (by decide +kernel : ∀ t : Fin grid3.N, _)

/-- Every block of rows is some point's. -/
theorem idx_onto : ∀ q0 : Fin 50, ∃ t : Fin cfg3.N, win3_2.index t = ![q0.val, 0] :=
  (by decide +kernel : ∀ q0 : Fin 50, ∃ t : Fin grid3.N, win3_2.index t = ![q0.val, 0])

/-- What point t writes back is block t of the log-softmax array. -/
theorem flushed_eq (c : Dev nD) (t : Fin cfg3.N) :
    (dat3 V c).flushed 2 t
      = ((cfg3.win 2).blk t).view.read (Elt Ideal) (Payloads.logSoftmaxRows (V c main_v65) (V c main_v66)) := by
  show (cfg3.win 2).cut (grid3.coords t) ((dat3 V c).after 2 t) = _
  rw [after3_2]
  unfold out3_2
  rw [View.canon_unit_zero hz]
  simp only [View.ld_unit_zero (S := S2000x16) hz, View.ld_unit_zero (S := S1x16) hz]
  obtain ⟨e0, e1, e2, e3, e4, e5⟩ := idx_facts t
  funext j
  refine Payloads.logSoftmax_block (V c main_v65) (V c main_v66) (iblk3 V c 0 t) (iblk3 V c 1 t) j
    (((cfg3.win 2).blk t).view.emb j) ?_ (fun r => ?_) (fun r => ?_)
  · show win3_2.index t (1 : Fin 2) * 16 + 1 * (j 1).val = (j 1).val; omega
  · show V c main_v65 (((cfg3.win 0).blk t).view.emb (ix2 (j 0) r)) = V c main_v65 (ix2 ((((cfg3.win 2).blk t).view.emb j) 0) r)
    refine congrArg (V c main_v65) ?_
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 16 + 1 * r.val = r.val; omega
  · show V c main_v66 (((cfg3.win 1).blk t).view.emb (ix2 (0 : Fin 1) r)) = V c main_v66 (ix2 (0 : Fin 1) r)
    refine congrArg (V c main_v66) ?_
    funext a; apply Fin.ext
    match a with
    | ⟨0, _⟩ => show win3_1.index t (0 : Fin 2) * 1 + 1 * 0 = 0; omega
    | ⟨1, _⟩ => show win3_1.index t (1 : Fin 2) * 16 + 1 * r.val = r.val; omega

/-- An index of the array is in point t's block iff each coordinate is in the block's range on its axis. -/
theorem mem_blk (t : Fin cfg3.N) (i : S100000x16.Idx) :
    i ∈ ((cfg3.win 2).blk t).view.set ↔ ∀ a : Fin 2, win3_2.index t a * S2000x16.size a ≤ (i a).val ∧ (i a).val < win3_2.index t a * S2000x16.size a + S2000x16.size a := by
  show i ∈ ((View.whole main_v67).slice (win3_2.rect t)).set ↔ _
  rw [View.set_slice_whole, Rect.mem_set_unit]
  exact Iff.rfl

/-- The blocks tile the array: row r is in the block of point r / 2000. -/
theorem cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 16 ≤ (i 1).val ∧ (i 1).val < win3_2.index t (1 : Fin 2) * 16 + 16; omega

/-- The array the last stage leaves. -/
theorem array_eq (c : Dev nD) :
    (dat3 V c).arrAt 2 cfg3.N = Payloads.logSoftmaxRows (V c main_v65) (V c main_v66) :=
  (dat3 V c).arrAt_eq_of_cover 2 _ (fun t _ => flushed_eq V c t) cover

end Cert.KernelIdeal.Region3

end
-- ==== Proof.LibRow.lean ====
/-
  A vector laid out as a one-row matrix. Reshaping a length-n vector to shape 1×n and broadcasting it along a new
  leading axis of extent 1 are the same array: entry (0, q) is entry q of the vector.
-/
import Idealize.ShloMosaic.Lib.Pipeline.Value
import Idealize.ShloMosaic.Lib.ValueIdx

noncomputable section

namespace Cert.LibRow

open Idealize.ShloMosaic Idealize.ShloMosaic.ValueIdx

/-- The row-major reshape of a vector to one row is its broadcast along a new leading unit axis. -/
theorem reshape_row_eq_broadcast {n : Nat} {α : Type} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, q, rfl⟩ : ∃ (z : Fin 1) (q : Fin n), j = ix2 z q := ⟨j 0, j 1, eq_ix2 j⟩
  have hq := q.isLt
  have hz := z.isLt
  rw [shapeCast_apply x h (ix2 z q) (ix1 q) (by
    rw [Shape.rowMajor_val_one, Shape.rowMajor_val_two]
    show q.val = z.val * n + q.val
    have : z.val = 0 := by omega
    rw [this]; omega)]
  exact (broadcastInDim_apply ![1] h' x (ix2 z q) (ix1 q) (fun a => by
    match a with
    | ⟨0, _⟩ => show q.val = if n = 1 then 0 else q.val; split <;> omega)).symm

end Cert.LibRow
-- ==== Proof.LibHostRowMax2.lean ====
/-
  A maximum along the rows of a matrix computed on the host, on the extended reals.

  A reduction by maximum that starts from negative infinity is the supremum of the entries folded into a result
  entry: max is commutative and associative, so the order of the fold is immaterial, and the starting value is the
  least element. This file reads such a reduction of an A × B array over its last axis at row a: the supremum over
  k < B of the entries (a, k), for any extents.
-/
import Idealize.ShloMosaic.PureOps.Ideal.Laws
import Idealize.ShloMosaic.Lib.ValueIdx

noncomputable section

namespace Cert.LibHostRowMax2

open Idealize.ShloMosaic Idealize.ShloMosaic.ValueIdx

/-- Of two axes, the one other than the last is axis 0, whatever the extents. -/
theorem kept_axis1 {A B : Nat} : (⟨2, ![A, B]⟩ : Shape).kept [1] = [0] := by
  show (List.finRange 2).filter (· ∉ ([1] : List (Fin 2))) = [0]
  decide

theorem kept_axis1_fst {A B : Nat} (hh : 0 < ((⟨2, ![A, B]⟩ : Shape).kept [1]).length) :
    ((⟨2, ![A, B]⟩ : Shape).kept [1])[0] = 0 := by
  revert hh; rw [kept_axis1]; intro _; rfl

/-- A host maximum over the last axis of an A × B array, from an initial value that is negative infinity, at row a:
    the supremum over k < B of the entries (a, k). -/
theorem hostReduce_max_rows {A B : Nat} (y : (⟨2, ![A, B]⟩ : Shape).Idx → EReal) {u : Shape}
    (init : u.Idx → EReal) (h' : (⟨2, ![A, B]⟩ : Shape).ReducesTo [1] ⟨1, ![A]⟩) (hu : 0 < u.numel)
    (hinit : init (Shape.Idx.first hu) = ⊥) (a : Fin A) :
    Host.reduce (FloatOps.maximumf (F := Ideal) (φ := .f32)) y init h' hu (ix1 a)
      = (Finset.univ : Finset (Fin B)).sup fun k => y (ix2 a k) := by
  rw [Host.reduce_eq_fold, hinit]
  have hd : ∀ i : (⟨2, ![A, B]⟩ : Shape).Idx, h'.drop i = ix1 (i 0 : Fin A) := fun i => by
    funext b'
    match b' with
    | ⟨0, _⟩ => exact Fin.ext (h'.drop_apply_val_of_eq i 0 0 (by rw [kept_axis1]; exact Nat.zero_lt_one) (kept_axis1_fst _))
  show (Finset.univ.filter fun i => h'.drop i = ix1 a).sup y = _
  apply le_antisymm
  · apply Finset.sup_le
    intro i hi
    have hi2 := (Finset.mem_filter.1 hi).2
    rw [hd] at hi2
    have e0 : (i 0 : Fin A) = a := congrFun hi2 0
    have ei : i = ix2 a (i 1 : Fin B) := by rw [← e0]; exact eq_ix2 i
    rw [ei]
    exact Finset.le_sup (f := fun k : Fin B => y (ix2 a k)) (Finset.mem_univ (i 1 : Fin B))
  · apply Finset.sup_le
    intro k _
    exact Finset.le_sup (f := y) (Finset.mem_filter.2 ⟨Finset.mem_univ _, (hd _).trans rfl⟩)

end Cert.LibHostRowMax2

end
-- ==== Proof.Bridge.lean ====
/-
  The reference's two row-wise stages are the kernel's, as functions of whole arrays.

  The reference adds the bias as a 16-vector broadcast first to one row and then over the 100000 rows, clamps at
  zero and multiplies by the mask; the kernel's clamp stage adds the one-row reshape of the same vector inside the
  stage. A length-16 vector reshaped to 1 × 16 is its broadcast to 1 × 16, so the two arrays agree entry by entry.

  The reference's log-softmax takes each row's maximum on the host from negative infinity (and once more the
  maximum with negative infinity, which changes nothing), subtracts it, exponentiates, sums each row from zero,
  takes the logarithm and subtracts; the kernel's last stage computes the same entries from the supremum of the row
  and the plain sum of the row. The exponential and the logarithm are the same functions on both sides.
-/
import proofs.«144356_j29618094473880_1_alg».proof.Proof.ReadP
import proofs.«144356_j29618094473880_1_alg».proof.Proof.Payloads
import proofs.«144356_j29618094473880_1_alg».proof.Proof.LibRow
import proofs.«144356_j29618094473880_1_alg».proof.Proof.LibHostRowMax2

noncomputable section

namespace Cert.Bridge

open Cert.ReferenceIdeal Cert.ReferenceIdeal.Gen Cert.ReferenceIdeal.ReadP
open Idealize.ShloMosaic Idealize.ShloMosaic.ValueIdx
open scoped BigOperators

/-- The first product is the reference's first `dot_general`. -/
theorem product1_eq (x0 : FVec Ideal S100000x512 .f32) (x2 : FVec Ideal S512x16 .f32) :
    Cert.KernelIdeal.Payloads.product1 x0 x2 = val_main_v4 (F := Ideal) x0 x2 := rfl

/-- The clamp stage over the reference's aggregated features, the reshaped bias and the mask is the reference's
    masked activations. -/
theorem clamp_eq (x0 : FVec Ideal S100000x512 .f32) (x1 : IVec S2x3200000 32) (x2 : FVec Ideal S512x16 .f32)
    (x3 : FVec Ideal S16 .f32) (x6 : FVec Ideal S100000x16 .f32) (h : S16.ShapeCasts S1x16) :
    Cert.KernelIdeal.Payloads.clampRows (val_main_v45 (F := Ideal) x0 x1 x2) (shapeCast S1x16 x3 h) x6
      = val_main_v50 (F := Ideal) x0 x1 x2 x3 x6 := by
  rw [Cert.LibRow.reshape_row_eq_broadcast x3 h bcast_S16_S1x16_1]
  show Cert.KernelIdeal.Payloads.clampRows (val_main_v45 (F := Ideal) x0 x1 x2) (val_main_v46 (F := Ideal) x3) x6 = _
  funext i
  rw [val_main_v50_apply, val_main_v49_apply, val_main_v48_apply, val_main_v47_apply, val_main_call0_v0_apply,
    val_main_call0_cst_apply]
  have hi : Cert.KernelIdeal.Payloads.rowUnder i = idx_main_v47 i :=
    funext fun a => by match a with | ⟨0, _⟩ => rfl | ⟨1, _⟩ => rfl
  show max (val_main_v45 (F := Ideal) x0 x1 x2 i + val_main_v46 (F := Ideal) x3 (Cert.KernelIdeal.Payloads.rowUnder i)) _ * x6 i = _
  rw [hi]
  generalize val_main_v45 (F := Ideal) x0 x1 x2 i = u
  generalize val_main_v46 (F := Ideal) x3 (idx_main_v47 i) = w
  rfl

/-- The second product over the reference's masked activations is the reference's second `dot_general`. -/
theorem product2_eq (x0 : FVec Ideal S100000x512 .f32) (x1 : IVec S2x3200000 32) (x2 : FVec Ideal S512x16 .f32)
    (x3 : FVec Ideal S16 .f32) (x4 : FVec Ideal S16x16 .f32) (x6 : FVec Ideal S100000x16 .f32) :
    Cert.KernelIdeal.Payloads.product2 (val_main_v50 (F := Ideal) x0 x1 x2 x3 x6) x4
      = val_main_v55 (F := Ideal) x0 x1 x2 x3 x4 x6 := rfl

section LogSoftmax

variable (x0 : FVec Ideal S100000x512 .f32) (x1 : IVec S2x3200000 32) (x2 : FVec Ideal S512x16 .f32)
  (x3 : FVec Ideal S16 .f32) (x4 : FVec Ideal S16x16 .f32) (x5 : FVec Ideal S16 .f32) (x6 : FVec Ideal S100000x16 .f32)

/-- The reference's biased array at (p, r). -/
theorem biased_at (p : Fin 100000) (r : Fin 16) :
    val_main_v99 (F := Ideal) x0 x1 x2 x3 x4 x5 x6 (ix2 p r)
      = val_main_v96 (F := Ideal) x0 x1 x2 x3 x4 x6 (ix2 p r) + val_main_v97 (F := Ideal) x5 (ix2 (0 : Fin 1) r) := by
  rw [val_main_v99_apply, val_main_v98_apply]
  have hi : idx_main_v98 (ix2 p r) = ix2 (0 : Fin 1) r :=
    funext fun a => by match a with | ⟨0, _⟩ => rfl | ⟨1, _⟩ => rfl
  rw [hi]
  generalize val_main_v96 (F := Ideal) x0 x1 x2 x3 x4 x6 (ix2 p r) = u
  generalize val_main_v97 (F := Ideal) x5 (ix2 (0 : Fin 1) r) = w
  rfl

/-- The reference's row maximum at row p: the supremum of the biased row. -/
theorem rowMax_at (p : Fin 100000) :
    val_main_call1_v2 (F := Ideal) x0 x1 x2 x3 x4 x5 x6 (ix1 p)
      = (Finset.univ : Finset (Fin 16)).sup fun r => val_main_v99 (F := Ideal) x0 x1 x2 x3 x4 x5 x6 (ix2 p r) := by
  rw [val_main_call1_v2_apply, val_main_call1_v1_apply, val_main_call1_cst_0_apply]
  unfold val_main_call1_v0
  rw [Cert.LibHostRowMax2.hostReduce_max_rows (A := 100000) (B := 16) _ _ reducesTo_S100000x16_S100000_d1 h_S_
    (by rw [val_main_call1_cst_apply]; exact Cert.LibRowReduce.ofBits_neg_inf) p]
  generalize ((Finset.univ : Finset (Fin 16)).sup fun r => val_main_v99 (F := Ideal) x0 x1 x2 x3 x4 x5 x6 (ix2 p r)) = s
  show max (Ideal.ofBits .f32 0xFF800000#32) s = s
  rw [Cert.LibRowReduce.ofBits_neg_inf]
  exact max_eq_right bot_le

/-- The reference's shifted array at (p, r). -/
theorem shifted_at (p : Fin 100000) (r : Fin 16) :
    val_main_call1_v5 (F := Ideal) x0 x1 x2 x3 x4 x5 x6 (ix2 p r)
      = val_main_v99 (F := Ideal) x0 x1 x2 x3 x4 x5 x6 (ix2 p r)
        - (Finset.univ : Finset (Fin 16)).sup fun r' => val_main_v99 (F := Ideal) x0 x1 x2 x3 x4 x5 x6 (ix2 p r') := by
  rw [val_main_call1_v5_apply, val_main_call1_v4_apply, val_main_call1_v3_apply]
  have hi : idx_main_call1_v3 (idx_main_call1_v4 (ix2 p r)) = ix1 p :=
    funext fun a => by match a with | ⟨0, _⟩ => rfl
  rw [hi, rowMax_at]
  generalize val_main_v99 (F := Ideal) x0 x1 x2 x3 x4 x5 x6 (ix2 p r) = u
  generalize ((Finset.univ : Finset (Fin 16)).sup fun r' => val_main_v99 (F := Ideal) x0 x1 x2 x3 x4 x5 x6 (ix2 p r')) = s
  rfl

/-- The reference's row sum of exponentials at row p. -/
theorem expSum_at (p : Fin 100000) :
    val_main_call1_v7 (F := Ideal) x0 x1 x2 x3 x4 x5 x6 (ix1 p)
      = ∑ r : Fin 16, Ideal.exp (val_main_call1_v5 (F := Ideal) x0 x1 x2 x3 x4 x5 x6 (ix2 p r)) := by
  rw [val_main_call1_v7_apply, val_main_call1_cst_1_apply]
  have hz : (FloatOps.ofBits (F := Ideal) .f32 0x00000000#32 : EReal) = 0 := Ideal.ofBits_zero_f32
  rw [hz, zero_add]
  refine Finset.sum_congr rfl fun r _ => ?_
  rw [val_main_call1_v6_apply]
  have hi : idx_main_call1_v7 (ix1 p) r = ix2 p r :=
    funext fun a => by match a with | ⟨0, _⟩ => rfl | ⟨1, _⟩ => rfl
  rw [hi]
  generalize val_main_call1_v5 (F := Ideal) x0 x1 x2 x3 x4 x5 x6 (ix2 p r) = u
  rfl

/-- The last stage over the reference's aggregated features and the reshaped bias is the reference's result. -/
theorem logSoftmax_eq (h : S16.ShapeCasts S1x16) :
    Cert.KernelIdeal.Payloads.logSoftmaxRows (val_main_v96 (F := Ideal) x0 x1 x2 x3 x4 x6) (shapeCast S1x16 x5 h)
      = val_main_v100 (F := Ideal) x0 x1 x2 x3 x4 x5 x6 := by
  rw [Cert.LibRow.reshape_row_eq_broadcast x5 h bcast_S16_S1x16_1]
  show Cert.KernelIdeal.Payloads.logSoftmaxRows (val_main_v96 (F := Ideal) x0 x1 x2 x3 x4 x6) (val_main_v97 (F := Ideal) x5) = _
  funext i
  obtain ⟨p, q, rfl⟩ : ∃ (p : Fin 100000) (q : Fin 16), i = ix2 p q := ⟨i 0, i 1, eq_ix2 i⟩
  rw [val_main_v100_apply, val_main_call1_v10_apply, val_main_call1_v9_apply, val_main_call1_v8_apply]
  have hi : idx_main_call1_v8 (idx_main_call1_v10 (ix2 p q)) = ix1 p :=
    funext fun a => by match a with | ⟨0, _⟩ => rfl
  rw [hi, expSum_at]
  simp only [shifted_at, biased_at]
  generalize val_main_v96 (F := Ideal) x0 x1 x2 x3 x4 x6 = A
  generalize val_main_v97 (F := Ideal) x5 = R
  rfl

end LogSoftmax

end Cert.Bridge

end
-- ==== Proof.Walk.lean ====
/-
  The idealized kernel's result array is the reference's result, as a function of the argument arrays.

  The program's buffer contents are followed from the launch to the return through its seven segments. The edge
  list's derived arrays (sources, destinations, the edge weights, the inverse degrees) are computed once by the
  first stretch of host operations and are never written again, so every later segment reads them as the first
  stretch left them. Each region's written array is the whole-array function of the arrays it read; each stretch
  of host operations between the regions applies to them the same gather, scale and scatter-add the reference
  applies. Layer by layer the kernel's array equals the reference's stage.
-/
import proofs.«144356_j29618094473880_1_alg».proof.Proof.Gen.KernelIdeal.Frame
import proofs.«144356_j29618094473880_1_alg».proof.Proof.Region0
import proofs.«144356_j29618094473880_1_alg».proof.Proof.Region1
import proofs.«144356_j29618094473880_1_alg».proof.Proof.Region2
import proofs.«144356_j29618094473880_1_alg».proof.Proof.Region3
import proofs.«144356_j29618094473880_1_alg».proof.Proof.Bridge

set_option maxRecDepth 16384

noncomputable section

namespace Cert.KernelIdeal.Walk

open Cert.KernelIdeal Cert.KernelIdeal.Gen
open Idealize.ShloMosaic Idealize.ShloMosaic.TcCoe Idealize.ShloMosaic.StableHlo
open Idealize.SL Idealize.SL.Sem

open Cert.ReferenceIdeal.ReadP in
section

variable (m : (ℓ : Loc nD τ sig) → Buf (Elt Ideal) ℓ) (ρ : Dev nD → PrngReg) (c : Dev nD)

/-! ## The reference computes the edge list's derived arrays twice, the same way -/

theorem src_again (x1 : IVec Cert.ReferenceIdeal.S2x3200000 32) : val_main_v52 (F := Ideal) x1 = val_main_v1 (F := Ideal) x1 := rfl
theorem dst_again (x1 : IVec Cert.ReferenceIdeal.S2x3200000 32) : val_main_v54 (F := Ideal) x1 = val_main_v3 (F := Ideal) x1 := rfl
theorem weights_again (x1 : IVec Cert.ReferenceIdeal.S2x3200000 32) : val_main_v77 (F := Ideal) x1 = val_main_v26 (F := Ideal) x1 := rfl
theorem invdeg_again (x1 : IVec Cert.ReferenceIdeal.S2x3200000 32) : val_main_v92 (F := Ideal) x1 = val_main_v41 (F := Ideal) x1 := rfl

/-! ## After the first stretch of host operations -/

theorem w1_a0 : W1 m ρ c (Proc.devRef .tc main_arg0) = m ((c : Thread nD τ).loc main_arg0) := by
  show after hostOps0 (W0 m ρ c) (Proc.devRef .tc main_arg0) = _; after_results
theorem w1_a2 : W1 m ρ c (Proc.devRef .tc main_arg2) = m ((c : Thread nD τ).loc main_arg2) := by
  show after hostOps0 (W0 m ρ c) (Proc.devRef .tc main_arg2) = _; after_results
theorem w1_a3 : W1 m ρ c (Proc.devRef .tc main_arg3) = m ((c : Thread nD τ).loc main_arg3) := by
  show after hostOps0 (W0 m ρ c) (Proc.devRef .tc main_arg3) = _; after_results
theorem w1_a4 : W1 m ρ c (Proc.devRef .tc main_arg4) = m ((c : Thread nD τ).loc main_arg4) := by
  show after hostOps0 (W0 m ρ c) (Proc.devRef .tc main_arg4) = _; after_results
theorem w1_a5 : W1 m ρ c (Proc.devRef .tc main_arg5) = m ((c : Thread nD τ).loc main_arg5) := by
  show after hostOps0 (W0 m ρ c) (Proc.devRef .tc main_arg5) = _; after_results
theorem w1_a6 : W1 m ρ c (Proc.devRef .tc main_arg6) = m ((c : Thread nD τ).loc main_arg6) := by
  show after hostOps0 (W0 m ρ c) (Proc.devRef .tc main_arg6) = _; after_results

/-- The edges' sources. -/
theorem w1_src : W1 m ρ c (Proc.devRef .tc main_v1) = val_main_v1 (F := Ideal) (m ((c : Thread nD τ).loc main_arg1)) := by
  show after hostOps0 (W0 m ρ c) (Proc.devRef .tc main_v1) = _; after_results; rfl
/-- The edges' destinations. -/
theorem w1_dst : W1 m ρ c (Proc.devRef .tc main_v3) = val_main_v3 (F := Ideal) (m ((c : Thread nD τ).loc main_arg1)) := by
  show after hostOps0 (W0 m ρ c) (Proc.devRef .tc main_v3) = _; after_results; rfl
set_option maxHeartbeats 4000000 in
/-- The edge weights: the product of the two endpoints' inverse square-root degrees. -/
theorem w1_weights : W1 m ρ c (Proc.devRef .tc main_v25) = val_main_v26 (F := Ideal) (m ((c : Thread nD τ).loc main_arg1)) := by
  show after hostOps0 (W0 m ρ c) (Proc.devRef .tc main_v25) = _; after_results_simp; rfl
set_option maxHeartbeats 4000000 in
/-- The inverse degrees. -/
theorem w1_invdeg : W1 m ρ c (Proc.devRef .tc main_v27) = val_main_v41 (F := Ideal) (m ((c : Thread nD τ).loc main_arg1)) := by
  show after hostOps0 (W0 m ρ c) (Proc.devRef .tc main_v27) = _; after_results_simp; rfl

/-! ## After the first product -/

theorem w2_a3 : W2 m ρ c (Proc.devRef .tc main_arg3) = m ((c : Thread nD τ).loc main_arg3) := (W2_of_ne m ρ c main_arg3 (by decide)).trans (w1_a3 m ρ c)
theorem w2_a4 : W2 m ρ c (Proc.devRef .tc main_arg4) = m ((c : Thread nD τ).loc main_arg4) := (W2_of_ne m ρ c main_arg4 (by decide)).trans (w1_a4 m ρ c)
theorem w2_a5 : W2 m ρ c (Proc.devRef .tc main_arg5) = m ((c : Thread nD τ).loc main_arg5) := (W2_of_ne m ρ c main_arg5 (by decide)).trans (w1_a5 m ρ c)
theorem w2_a6 : W2 m ρ c (Proc.devRef .tc main_arg6) = m ((c : Thread nD τ).loc main_arg6) := (W2_of_ne m ρ c main_arg6 (by decide)).trans (w1_a6 m ρ c)
theorem w2_src : W2 m ρ c (Proc.devRef .tc main_v1) = val_main_v1 (F := Ideal) (m ((c : Thread nD τ).loc main_arg1)) := (W2_of_ne m ρ c main_v1 (by decide)).trans (w1_src m ρ c)
theorem w2_dst : W2 m ρ c (Proc.devRef .tc main_v3) = val_main_v3 (F := Ideal) (m ((c : Thread nD τ).loc main_arg1)) := (W2_of_ne m ρ c main_v3 (by decide)).trans (w1_dst m ρ c)
theorem w2_weights : W2 m ρ c (Proc.devRef .tc main_v25) = val_main_v26 (F := Ideal) (m ((c : Thread nD τ).loc main_arg1)) := (W2_of_ne m ρ c main_v25 (by decide)).trans (w1_weights m ρ c)
theorem w2_invdeg : W2 m ρ c (Proc.devRef .tc main_v27) = val_main_v41 (F := Ideal) (m ((c : Thread nD τ).loc main_arg1)) := (W2_of_ne m ρ c main_v27 (by decide)).trans (w1_invdeg m ρ c)

/-- The first region leaves the reference's first product. -/
theorem w2_product : W2 m ρ c (Proc.devRef .tc main_v28)
    = val_main_v4 (F := Ideal) (m ((c : Thread nD τ).loc main_arg0)) (m ((c : Thread nD τ).loc main_arg2)) := by
  refine (W2_arr m ρ c 2).trans ((Region0.array_eq (V1 m ρ) c).trans ?_)
  show Payloads.product1 (W1 m ρ c (Proc.devRef .tc main_arg0)) (W1 m ρ c (Proc.devRef .tc main_arg2)) = _
  rw [w1_a0, w1_a2]
  exact Cert.Bridge.product1_eq _ _

/-! ## After the first aggregation -/

set_option maxHeartbeats 4000000 in
/-- The aggregated first-layer features: the reference's. -/
theorem w3_agg : W3 m ρ c (Proc.devRef .tc main_v45)
    = val_main_v45 (F := Ideal) (m ((c : Thread nD τ).loc main_arg0)) (m ((c : Thread nD τ).loc main_arg1)) (m ((c : Thread nD τ).loc main_arg2)) := by
  show after hostOps1 (W2 m ρ c) (Proc.devRef .tc main_v45) = _
  after_results_simp
  rw [w2_product, w2_src, w2_dst, w2_weights, w2_invdeg]
  rfl

/-- The first bias as one row. -/
theorem w3_bias : W3 m ρ c (Proc.devRef .tc main_v46)
    = shapeCast S1x16 (m ((c : Thread nD τ).loc main_arg3)) shapeCasts_S16_S1x16 := by
  show after hostOps1 (W2 m ρ c) (Proc.devRef .tc main_v46) = _
  after_results
  rw [w2_a3]
  rfl

theorem w3_a4 : W3 m ρ c (Proc.devRef .tc main_arg4) = m ((c : Thread nD τ).loc main_arg4) := by
  show after hostOps1 (W2 m ρ c) (Proc.devRef .tc main_arg4) = _; after_results; exact w2_a4 m ρ c
theorem w3_a5 : W3 m ρ c (Proc.devRef .tc main_arg5) = m ((c : Thread nD τ).loc main_arg5) := by
  show after hostOps1 (W2 m ρ c) (Proc.devRef .tc main_arg5) = _; after_results; exact w2_a5 m ρ c
theorem w3_a6 : W3 m ρ c (Proc.devRef .tc main_arg6) = m ((c : Thread nD τ).loc main_arg6) := by
  show after hostOps1 (W2 m ρ c) (Proc.devRef .tc main_arg6) = _; after_results; exact w2_a6 m ρ c
theorem w3_src : W3 m ρ c (Proc.devRef .tc main_v1) = val_main_v1 (F := Ideal) (m ((c : Thread nD τ).loc main_arg1)) := by
  show after hostOps1 (W2 m ρ c) (Proc.devRef .tc main_v1) = _; after_results; exact w2_src m ρ c
theorem w3_dst : W3 m ρ c (Proc.devRef .tc main_v3) = val_main_v3 (F := Ideal) (m ((c : Thread nD τ).loc main_arg1)) := by
  show after hostOps1 (W2 m ρ c) (Proc.devRef .tc main_v3) = _; after_results; exact w2_dst m ρ c
theorem w3_weights : W3 m ρ c (Proc.devRef .tc main_v25) = val_main_v26 (F := Ideal) (m ((c : Thread nD τ).loc main_arg1)) := by
  show after hostOps1 (W2 m ρ c) (Proc.devRef .tc main_v25) = _; after_results; exact w2_weights m ρ c
theorem w3_invdeg : W3 m ρ c (Proc.devRef .tc main_v27) = val_main_v41 (F := Ideal) (m ((c : Thread nD τ).loc main_arg1)) := by
  show after hostOps1 (W2 m ρ c) (Proc.devRef .tc main_v27) = _; after_results; exact w2_invdeg m ρ c

/-! ## After the clamp stage -/

theorem w4_a4 : W4 m ρ c (Proc.devRef .tc main_arg4) = m ((c : Thread nD τ).loc main_arg4) := (W4_of_ne m ρ c main_arg4 (by decide)).trans (w3_a4 m ρ c)
theorem w4_a5 : W4 m ρ c (Proc.devRef .tc main_arg5) = m ((c : Thread nD τ).loc main_arg5) := (W4_of_ne m ρ c main_arg5 (by decide)).trans (w3_a5 m ρ c)
theorem w4_src : W4 m ρ c (Proc.devRef .tc main_v1) = val_main_v1 (F := Ideal) (m ((c : Thread nD τ).loc main_arg1)) := (W4_of_ne m ρ c main_v1 (by decide)).trans (w3_src m ρ c)
theorem w4_dst : W4 m ρ c (Proc.devRef .tc main_v3) = val_main_v3 (F := Ideal) (m ((c : Thread nD τ).loc main_arg1)) := (W4_of_ne m ρ c main_v3 (by decide)).trans (w3_dst m ρ c)
theorem w4_weights : W4 m ρ c (Proc.devRef .tc main_v25) = val_main_v26 (F := Ideal) (m ((c : Thread nD τ).loc main_arg1)) := (W4_of_ne m ρ c main_v25 (by decide)).trans (w3_weights m ρ c)
theorem w4_invdeg : W4 m ρ c (Proc.devRef .tc main_v27) = val_main_v41 (F := Ideal) (m ((c : Thread nD τ).loc main_arg1)) := (W4_of_ne m ρ c main_v27 (by decide)).trans (w3_invdeg m ρ c)

/-- The clamp stage leaves the reference's masked activations. -/
theorem w4_hidden : W4 m ρ c (Proc.devRef .tc main_v47)
    = val_main_v50 (F := Ideal) (m ((c : Thread nD τ).loc main_arg0)) (m ((c : Thread nD τ).loc main_arg1)) (m ((c : Thread nD τ).loc main_arg2))
        (m ((c : Thread nD τ).loc main_arg3)) (m ((c : Thread nD τ).loc main_arg6)) := by
  refine (W4_arr m ρ c 3).trans ((Region1.array_eq (V3 m ρ) c).trans ?_)
  show Payloads.clampRows (W3 m ρ c (Proc.devRef .tc main_v45)) (W3 m ρ c (Proc.devRef .tc main_v46)) (W3 m ρ c (Proc.devRef .tc main_arg6)) = _
  rw [w3_agg, w3_bias, w3_a6]
  exact Cert.Bridge.clamp_eq _ _ _ _ _ _

/-! ## After the second product -/

theorem w5_a5 : W5 m ρ c (Proc.devRef .tc main_arg5) = m ((c : Thread nD τ).loc main_arg5) := (W5_of_ne m ρ c main_arg5 (by decide)).trans (w4_a5 m ρ c)
theorem w5_src : W5 m ρ c (Proc.devRef .tc main_v1) = val_main_v52 (F := Ideal) (m ((c : Thread nD τ).loc main_arg1)) := ((W5_of_ne m ρ c main_v1 (by decide)).trans (w4_src m ρ c)).trans (src_again _).symm
theorem w5_dst : W5 m ρ c (Proc.devRef .tc main_v3) = val_main_v54 (F := Ideal) (m ((c : Thread nD τ).loc main_arg1)) := ((W5_of_ne m ρ c main_v3 (by decide)).trans (w4_dst m ρ c)).trans (dst_again _).symm
theorem w5_weights : W5 m ρ c (Proc.devRef .tc main_v25) = val_main_v77 (F := Ideal) (m ((c : Thread nD τ).loc main_arg1)) := ((W5_of_ne m ρ c main_v25 (by decide)).trans (w4_weights m ρ c)).trans (weights_again _).symm
theorem w5_invdeg : W5 m ρ c (Proc.devRef .tc main_v27) = val_main_v92 (F := Ideal) (m ((c : Thread nD τ).loc main_arg1)) := ((W5_of_ne m ρ c main_v27 (by decide)).trans (w4_invdeg m ρ c)).trans (invdeg_again _).symm

/-- The third region leaves the reference's second product. -/
theorem w5_product : W5 m ρ c (Proc.devRef .tc main_v48)
    = val_main_v55 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) := by
  refine (W5_arr m ρ c 2).trans ((Region2.array_eq (V4 m ρ) c).trans ?_)
  show Payloads.product2 (W4 m ρ c (Proc.devRef .tc main_v47)) (W4 m ρ c (Proc.devRef .tc main_arg4)) = _
  rw [w4_hidden, w4_a4]
  exact Cert.Bridge.product2_eq _ _ _ _ _ _

/-! ## After the second aggregation -/

set_option maxHeartbeats 4000000 in
/-- The aggregated second-layer features: the reference's. -/
theorem w6_agg : W6 m ρ c (Proc.devRef .tc main_v65)
    = val_main_v96 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) := by
  show after hostOps3 (W5 m ρ c) (Proc.devRef .tc main_v65) = _
  after_results_simp
  rw [w5_product, w5_src, w5_dst, w5_weights, w5_invdeg]
  rfl

/-- The second bias as one row. -/
theorem w6_bias : W6 m ρ c (Proc.devRef .tc main_v66)
    = shapeCast S1x16 (m ((c : Thread nD τ).loc main_arg5)) shapeCasts_S16_S1x16 := by
  show after hostOps3 (W5 m ρ c) (Proc.devRef .tc main_v66) = _
  after_results
  rw [w5_a5]
  rfl

/-! ## The result -/

/-- The last region leaves the reference's result. -/
theorem result_eq : W7 m ρ c (Proc.devRef .tc main_v67)
    = val_main_v100 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (W7_arr m ρ c 2).trans ((Region3.array_eq (V6 m ρ) c).trans ?_)
  show Payloads.logSoftmaxRows (W6 m ρ c (Proc.devRef .tc main_v65)) (W6 m ρ c (Proc.devRef .tc main_v66)) = _
  rw [w6_agg, w6_bias]
  exact Cert.Bridge.logSoftmax_eq _ _ _ _ _ _ _ _

end

end Cert.KernelIdeal.Walk

end
-- ==== Proof.RefSeg1.lean ====
/-
  The idealized reference's first sixty host operations: the first layer's biased aggregated features. The
  operations are run from any buffer contents; the buffer of the biased features ends at the stage function of the
  four arguments it depends on, and the edge list, the second weight matrix, the second bias and the mask are not
  written.
-/
import proofs.«144356_j29618094473880_1_alg».proof.Proof.ReadP
import proofs.«144356_j29618094473880_1_alg».proof.Proof.RunOps

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The line cut after its 60th and its 121st operation. -/
theorem ops_cut : (ops (F := Ideal)) = (ops (F := Ideal)).take 60 ++ (((ops (F := Ideal)).drop 60).take 61 ++ ((ops (F := Ideal)).drop 60).drop 61) :=
  (List.take_append_drop 60 _).symm.trans (congrArg _ (List.take_append_drop 61 _).symm)

variable (V : Valuation τ sig (Elt Ideal))

set_option maxRecDepth 65536 in
set_option maxHeartbeats 40000000 in
/-- The first layer's biased aggregated features. -/
theorem seg1_features : after ((ops (F := Ideal)).take 60) V (Proc.devRef .tc main_v48)
    = val_main_v48 (F := Ideal) (V (Proc.devRef .tc main_arg0)) (V (Proc.devRef .tc main_arg1)) (V (Proc.devRef .tc main_arg2)) (V (Proc.devRef .tc main_arg3)) := by
  simp only [ops, List.take_succ_cons, List.take_zero]
  after_results_simp
  rfl

set_option maxRecDepth 65536 in
set_option maxHeartbeats 40000000 in
theorem seg1_kept (b : Ref sig .tc) (hb : b = main_arg1 ∨ b = main_arg4 ∨ b = main_arg5 ∨ b = main_arg6) :
    after ((ops (F := Ideal)).take 60) V (Proc.devRef .tc b) = V (Proc.devRef .tc b) := by
  simp only [ops, List.take_succ_cons, List.take_zero]
  rcases hb with rfl | rfl | rfl | rfl <;> after_results_simp

end Cert.ReferenceIdeal.RefRun

end
-- ==== Proof.RefSeg2.lean ====
/-
  The idealized reference's operations 61 to 121: clamp at zero, mask, the second product and the second
  aggregation. They read from what came before only the first layer's biased features and the arguments, so they
  are run from any buffer contents that hold those; the buffer of the second aggregation ends at its stage function.
-/
import proofs.«144356_j29618094473880_1_alg».proof.Proof.ReadP
import proofs.«144356_j29618094473880_1_alg».proof.Proof.RunOps

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

set_option maxRecDepth 65536 in
set_option maxHeartbeats 40000000 in
/-- The second layer's aggregated features, from the first segment's array and the arguments. -/
theorem seg2_features (x0 : FVec Ideal S100000x512 .f32) (x1 : IVec S2x3200000 32) (x2 : FVec Ideal S512x16 .f32)
    (x3 : FVec Ideal S16 .f32) (x4 : FVec Ideal S16x16 .f32) (x6 : FVec Ideal S100000x16 .f32)
    (h48 : V (Proc.devRef .tc main_v48) = val_main_v48 (F := Ideal) x0 x1 x2 x3)
    (h1 : V (Proc.devRef .tc main_arg1) = x1) (h4 : V (Proc.devRef .tc main_arg4) = x4) (h6 : V (Proc.devRef .tc main_arg6) = x6) :
    after (((ops (F := Ideal)).drop 60).take 61) V (Proc.devRef .tc main_v96) = val_main_v96 (F := Ideal) x0 x1 x2 x3 x4 x6 := by
  simp only [ops, List.drop_succ_cons, List.drop_zero, List.take_succ_cons, List.take_zero]
  after_results_simp
  simp only [TRef.toBuf, TRef.ofBuf, cast_eq, h48, h1, h4, h6]
  rfl

set_option maxRecDepth 65536 in
set_option maxHeartbeats 40000000 in
theorem seg2_kept : after (((ops (F := Ideal)).drop 60).take 61) V (Proc.devRef .tc main_arg5) = V (Proc.devRef .tc main_arg5) := by
  simp only [ops, List.drop_succ_cons, List.drop_zero, List.take_succ_cons, List.take_zero]
  after_results_simp

end Cert.ReferenceIdeal.RefRun

end
-- ==== Proof.RefSeg3.lean ====
/-
  The idealized reference's last eighteen operations: the second bias and the row-wise log-softmax. They read from
  what came before only the second aggregation and the second bias; the result buffer ends at the last stage.
-/
import proofs.«144356_j29618094473880_1_alg».proof.Proof.ReadP
import proofs.«144356_j29618094473880_1_alg».proof.Proof.RunOps

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

set_option maxRecDepth 65536 in
set_option maxHeartbeats 40000000 in
/-- The result, from the second segment's array and the second bias. -/
theorem seg3_result (x0 : FVec Ideal S100000x512 .f32) (x1 : IVec S2x3200000 32) (x2 : FVec Ideal S512x16 .f32)
    (x3 : FVec Ideal S16 .f32) (x4 : FVec Ideal S16x16 .f32) (x5 : FVec Ideal S16 .f32) (x6 : FVec Ideal S100000x16 .f32)
    (h96 : V (Proc.devRef .tc main_v96) = val_main_v96 (F := Ideal) x0 x1 x2 x3 x4 x6)
    (h5 : V (Proc.devRef .tc main_arg5) = x5) :
    after (((ops (F := Ideal)).drop 60).drop 61) V (Proc.devRef .tc main_v100) = val_main_v100 (F := Ideal) x0 x1 x2 x3 x4 x5 x6 := by
  simp only [ops, List.drop_succ_cons, List.drop_zero]
  after_results_simp
  simp only [TRef.toBuf, TRef.ofBuf, cast_eq, h96, h5]
  rfl

end Cert.ReferenceIdeal.RefRun

end
-- ==== Proof.RefKeptA.lean ====
/-
  No host operation of the idealized reference writes an argument buffer: the first four arguments keep their
  contents through the whole line.
-/
import proofs.«144356_j29618094473880_1_alg».proof.Proof.RunOps
import Idealize.ShloMosaic.PureOps.Ideal

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable (V : Valuation τ sig (Elt Ideal))

set_option maxRecDepth 65536 in
set_option maxHeartbeats 40000000 in
theorem kept0 : after (ops (F := Ideal)) V (Proc.devRef .tc main_arg0) = V (Proc.devRef .tc main_arg0) := by
  after_results_simp

set_option maxRecDepth 65536 in
set_option maxHeartbeats 40000000 in
theorem kept1 : after (ops (F := Ideal)) V (Proc.devRef .tc main_arg1) = V (Proc.devRef .tc main_arg1) := by
  after_results_simp

set_option maxRecDepth 65536 in
set_option maxHeartbeats 40000000 in
theorem kept2 : after (ops (F := Ideal)) V (Proc.devRef .tc main_arg2) = V (Proc.devRef .tc main_arg2) := by
  after_results_simp

set_option maxRecDepth 65536 in
set_option maxHeartbeats 40000000 in
theorem kept3 : after (ops (F := Ideal)) V (Proc.devRef .tc main_arg3) = V (Proc.devRef .tc main_arg3) := by
  after_results_simp

end Cert.ReferenceIdeal.RefRun

end
-- ==== Proof.RefKeptB.lean ====
/-
  No host operation of the idealized reference writes an argument buffer: the last three arguments keep their
  contents through the whole line.
-/
import proofs.«144356_j29618094473880_1_alg».proof.Proof.RunOps
import Idealize.ShloMosaic.PureOps.Ideal

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable (V : Valuation τ sig (Elt Ideal))

set_option maxRecDepth 65536 in
set_option maxHeartbeats 40000000 in
theorem kept4 : after (ops (F := Ideal)) V (Proc.devRef .tc main_arg4) = V (Proc.devRef .tc main_arg4) := by
  after_results_simp

set_option maxRecDepth 65536 in
set_option maxHeartbeats 40000000 in
theorem kept5 : after (ops (F := Ideal)) V (Proc.devRef .tc main_arg5) = V (Proc.devRef .tc main_arg5) := by
  after_results_simp

set_option maxRecDepth 65536 in
set_option maxHeartbeats 40000000 in
theorem kept6 : after (ops (F := Ideal)) V (Proc.devRef .tc main_arg6) = V (Proc.devRef .tc main_arg6) := by
  after_results_simp

end Cert.ReferenceIdeal.RefRun

end
-- ==== Proof.RefRun.lean ====
/-
  The idealized reference's run. The reference is a straight line of 139 host operations, read in three segments
  (the first layer up to its biased aggregated features; the clamp, the second product and the second aggregation;
  the second bias and the log-softmax): the result buffer ends at the last stage function of the arguments, and
  no operation writes an argument.
-/
import proofs.«144356_j29618094473880_1_alg».proof.Proof.ReadP
import proofs.«144356_j29618094473880_1_alg».proof.Proof.RunOps
import proofs.«144356_j29618094473880_1_alg».proof.Proof.RefSeg1
import proofs.«144356_j29618094473880_1_alg».proof.Proof.RefSeg2
import proofs.«144356_j29618094473880_1_alg».proof.Proof.RefSeg3
import proofs.«144356_j29618094473880_1_alg».proof.Proof.RefKeptA
import proofs.«144356_j29618094473880_1_alg».proof.Proof.RefKeptB

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

/-- The result buffer after the whole line: the last stage of the arguments. -/
theorem result : after (ops (F := Ideal)) V (Proc.devRef .tc main_v100) = val_main_v100 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_cut, after_append, after_append]
  refine seg3_result _ _ _ _ _ _ _ _ (seg2_features _ _ _ _ _ _ _ (seg1_features V) (seg1_kept V _ (.inl rfl)) (seg1_kept V _ (.inr (.inl rfl))) (seg1_kept V _ (.inr (.inr (.inr rfl))))) ?_
  exact (seg2_kept _).trans (seg1_kept V _ (.inr (.inr (.inl rfl))))

/-- On every device, from any memory with zero counters: every weakly fair execution of the reference terminates
    with the result buffer at the last stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v100)
        = val_main_v100 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v100).trans (result _),
      (h c main_arg0).trans (kept0 _), (h c main_arg1).trans (kept1 _), (h c main_arg2).trans (kept2 _),
      (h c main_arg3).trans (kept3 _), (h c main_arg4).trans (kept4 _), (h c main_arg5).trans (kept5 _),
      (h c main_arg6).trans (kept6 _)⟩)
    (run_seq scopedRefs_eq scopedSems_eq defs main (fun _ => ops) main_eq (fun _ => ops_sub) m ρ)

end Cert.ReferenceIdeal.RefRun

end
-- ==== Proof.lean ====
/-
  Two-layer graph convolution with a log-softmax head: the Pallas program against its jnp reference, on the
  extended reals.

  The program computes x·W1 by a row-blocked matrix-unit kernel, aggregates over the edges on the host
  (gather the source rows, scale by the edge weight deg(src)^(-1/2) · deg(dst)^(-1/2), scatter-add into the
  destination rows, add the self-loop term h / deg), applies max (· + b1, 0) · mask by a second kernel,
  multiplies by W2 by a third, aggregates again, and takes the row-wise log-softmax of (· + b2) by a fourth.
  The reference does the same with plain host operations, recomputing the degrees for the second layer.

  At the ideal values a change of float format is the identity, so each matrix-unit product of a 2000-row block is
  the block of the whole product; the clamp and the log-softmax act row by row, and a block holds whole rows; the
  fifty blocks tile the 100000 rows. The host aggregation is the same composition of operations on both sides, and
  it is never opened: the arrays going into it are shown equal. No law of the extended reals beyond
  max (-∞, x) = x and 0 + x = x is used, so the precondition is not opened either.

  The three frames: the two kernels' are the generated frame certificates; the reference's is its run with the
  result dropped. The idealization rewrote nothing, so `preserves` is trivial.
-/
import proofs.«144356_j29618094473880_1_alg».proof.Defs
import proofs.«144356_j29618094473880_1_alg».proof.Proof.Gen.Kernel
import proofs.«144356_j29618094473880_1_alg».proof.Proof.Gen.Kernel.Frame
import proofs.«144356_j29618094473880_1_alg».proof.Proof.Gen.KernelIdeal
import proofs.«144356_j29618094473880_1_alg».proof.Proof.Gen.KernelIdeal.Frame
import proofs.«144356_j29618094473880_1_alg».proof.Proof.Gen.ReferenceIdeal
import proofs.«144356_j29618094473880_1_alg».proof.Proof.Gen.Pre_finite_inputs
import proofs.«144356_j29618094473880_1_alg».proof.Proof.RunValue
import proofs.«144356_j29618094473880_1_alg».proof.Proof.Walk
import proofs.«144356_j29618094473880_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

/-- From memories that agree on the arguments both programs run, and the kernel's result array is the
    reference's: both are the last stage of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v67),
    Cert.KernelIdeal.RunValue.run_value m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1,
    (hagree c).2.2.2.2.2.1, (hagree c).2.2.2.2.2.2]
  exact (Cert.KernelIdeal.Walk.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
